-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x32 : Shape := ⟨2, ![11008, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S4x2048x4096 .f32) (main_arg1 : IVec S11008x4096 32) (main_arg2 : FVec F S11008x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008x32 : Shape := ⟨2, ![11008, 32]⟩
abbrev S8192x4096 : Shape := ⟨2, ![8192, 4096]⟩
abbrev S256x4096 : Shape := ⟨2, ![256, 4096]⟩
abbrev S256x32 : Shape := ⟨2, ![256, 32]⟩
abbrev S256x128 : Shape := ⟨2, ![256, 128]⟩
abbrev S256x1 : Shape := ⟨2, ![256, 1]⟩
abbrev S8192x11008 : Shape := ⟨2, ![8192, 11008]⟩
abbrev S1024x4096 : Shape := ⟨2, ![1024, 4096]⟩
abbrev S1024x256 : Shape := ⟨2, ![1024, 256]⟩
abbrev S4x2048x11008 : Shape := ⟨3, ![4, 2048, 11008]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S8192x4096, .f32⟩
  | .hbm, ⟨4, _⟩ => ⟨S8192x4096, .bf16⟩
  | .hbm, ⟨5, _⟩ => ⟨S11008x4096, .bf16⟩
  | .hbm, ⟨6, _⟩ => ⟨S8192x11008, .f32⟩
  | .hbm, ⟨7, _⟩ => ⟨S4x2048x11008, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x4096, .bf16⟩
  | .local _ .vmem, ⟨5, _⟩ => ⟨S256x4096, .bf16⟩
  | .local _ .vmem, ⟨6, _⟩ => ⟨S1024x4096, .bf16⟩
  | .local _ .vmem, ⟨7, _⟩ => ⟨S1024x4096, .bf16⟩
  | .local _ .vmem, ⟨8, _⟩ => ⟨S256x4096, .bf16⟩
  | .local _ .vmem, ⟨9, _⟩ => ⟨S256x4096, .bf16⟩
  | .local _ .vmem, ⟨10, _⟩ => ⟨S1024x256, .f32⟩
  | .local _ .vmem, ⟨11, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x4096_S8192x4096 : S4x2048x4096.ShapeCasts S8192x4096
  bitsLt_bf16_f32 : FTy.bits .bf16 < FTy.bits .f32
  inb_S256x4096_S256x128_0_0 : ∀ a, (![0, 0] : Fin 2 → Nat) a + S256x128.size a ≤ S256x4096.size a
  h_S256x128 : 0 < S256x128.numel
  inb_S256x32_S256x1_0_0 : ∀ a, (![0, 0] : Fin 2 → Nat) a + S256x1.size a ≤ S256x32.size a
  h_S256x1 : 0 < S256x1.numel
  broadcasts_S256x1_S256x128 : S256x1.Broadcasts S256x128
  packedbf16_S256x4096_S256x128_0_0 : (Rect.unit (s := S256x4096) ![0, 0] S256x128.size inb_S256x4096_S256x128_0_0).PackedRows (EltTy.packing .bf16)
  inb_S256x4096_S256x128_0_128 : ∀ a, (![0, 128] : Fin 2 → Nat) a + S256x128.size a ≤ S256x4096.size a
  inb_S256x32_S256x1_0_1 : ∀ a, (![0, 1] : Fin 2 → Nat) a + S256x1.size a ≤ S256x32.size a
  packedbf16_S256x4096_S256x128_0_128 : (Rect.unit (s := S256x4096) ![0, 128] S256x128.size inb_S256x4096_S256x128_0_128).PackedRows (EltTy.packing .bf16)
  inb_S256x4096_S256x128_0_256 : ∀ a, (![0, 256] : Fin 2 → Nat) a + S256x128.size a ≤ S256x4096.size a
  inb_S256x32_S256x1_0_2 : ∀ a, (![0, 2] : Fin 2 → Nat) a + S256x1.size a ≤ S256x32.size a
  packedbf16_S256x4096_S256x128_0_256 : (Rect.unit (s := S256x4096) ![0, 256] S256x128.size inb_S256x4096_S256x128_0_256).PackedRows (EltTy.packing .bf16)
  inb_S256x4096_S256x128_0_384 : ∀ a, (![0, 384] : Fin 2 → Nat) a + S256x128.size a ≤ S256x4096.size a
  inb_S256x32_S256x1_0_3 : ∀ a, (![0, 3] : Fin 2 → Nat) a + S256x1.size a ≤ S256x32.size a
  packedbf16_S256x4096_S256x128_0_384 : (Rect.unit (s := S256x4096) ![0, 384] S256x128.size inb_S256x4096_S256x128_0_384).PackedRows (EltTy.packing .bf16)
  inb_S256x4096_S256x128_0_512 : ∀ a, (![0, 512] : Fin 2 → Nat) a + S256x128.size a ≤ S256x4096.size a
  inb_S256x32_S256x1_0_4 : ∀ a, (![0, 4] : Fin 2 → Nat) a + S256x1.size a ≤ S256x32.size a
  packedbf16_S256x4096_S256x128_0_512 : (Rect.unit (s := S256x4096) ![0, 512] S256x128.size inb_S256x4096_S256x128_0_512).PackedRows (EltTy.packing .bf16)
  inb_S256x4096_S256x128_0_640 : ∀ a, (![0, 640] : Fin 2 → Nat) a + S256x128.size a ≤ S256x4096.size a
  inb_S256x32_S256x1_0_5 : ∀ a, (![0, 5] : Fin 2 → Nat) a + S256x1.size a ≤ S256x32.size a
  packedbf16_S256x4096_S256x128_0_640 : (Rect.unit (s := S256x4096) ![0, 640] S256x128.size inb_S256x4096_S256x128_0_640).PackedRows (EltTy.packing .bf16)
  inb_S256x4096_S256x128_0_768 : ∀ a, (![0, 768] : Fin 2 → Nat) a + S256x128.size a ≤ S256x4096.size a
  inb_S256x32_S256x1_0_6 : ∀ a, (![0, 6] : Fin 2 → Nat) a + S256x1.size a ≤ S256x32.size a
  packedbf16_S256x4096_S256x128_0_768 : (Rect.unit (s := S256x4096) ![0, 768] S256x128.size inb_S256x4096_S256x128_0_768).PackedRows (EltTy.packing .bf16)
  inb_S256x4096_S256x128_0_896 : ∀ a, (![0, 896] : Fin 2 → Nat) a + S256x128.size a ≤ S256x4096.size a
  inb_S256x32_S256x1_0_7 : ∀ a, (![0, 7] : Fin 2 → Nat) a + S256x1.size a ≤ S256x32.size a
  packedbf16_S256x4096_S256x128_0_896 : (Rect.unit (s := S256x4096) ![0, 896] S256x128.size inb_S256x4096_S256x128_0_896).PackedRows (EltTy.packing .bf16)
  inb_S256x4096_S256x128_0_1024 : ∀ a, (![0, 1024] : Fin 2 → Nat) a + S256x128.size a ≤ S256x4096.size a
  inb_S256x32_S256x1_0_8 : ∀ a, (![0, 8] : Fin 2 → Nat) a + S256x1.size a ≤ S256x32.size a
  packedbf16_S256x4096_S256x128_0_1024 : (Rect.unit (s := S256x4096) ![0, 1024] S256x128.size inb_S256x4096_S256x128_0_1024).PackedRows (EltTy.packing .bf16)
  inb_S256x4096_S256x128_0_1152 : ∀ a, (![0, 1152] : Fin 2 → Nat) a + S256x128.size a ≤ S256x4096.size a
  inb_S256x32_S256x1_0_9 : ∀ a, (![0, 9] : Fin 2 → Nat) a + S256x1.size a ≤ S256x32.size a
  packedbf16_S256x4096_S256x128_0_1152 : (Rect.unit (s := S256x4096) ![0, 1152] S256x128.size inb_S256x4096_S256x128_0_1152).PackedRows (EltTy.packing .bf16)
  inb_S256x4096_S256x128_0_1280 : ∀ a, (![0, 1280] : Fin 2 → Nat) a + S256x128.size a ≤ S256x4096.size a
  inb_S256x32_S256x1_0_10 : ∀ a, (![0, 10] : Fin 2 → Nat) a + S256x1.size a ≤ S256x32.size a
  packedbf16_S256x4096_S256x128_0_1280 : (Rect.unit (s := S256x4096) ![0, 1280] S256x128.size inb_S256x4096_S256x128_0_1280).PackedRows (EltTy.packing .bf16)
  inb_S256x4096_S256x128_0_1408 : ∀ a, (![0, 1408] : Fin 2 → Nat) a + S256x128.size a ≤ S256x4096.size a
  inb_S256x32_S256x1_0_11 : ∀ a, (![0, 11] : Fin 2 → Nat) a + S256x1.size a ≤ S256x32.size a
  packedbf16_S256x4096_S256x128_0_1408 : (Rect.unit (s := S256x4096) ![0, 1408] S256x128.size inb_S256x4096_S256x128_0_1408).PackedRows (EltTy.packing .bf16)
  inb_S256x4096_S256x128_0_1536 : ∀ a, (![0, 1536] : Fin 2 → Nat) a + S256x128.size a ≤ S256x4096.size a
  inb_S256x32_S256x1_0_12 : ∀ a, (![0, 12] : Fin 2 → Nat) a + S256x1.size a ≤ S256x32.size a
  packedbf16_S256x4096_S256x128_0_1536 : (Rect.unit (s := S256x4096) ![0, 1536] S256x128.size inb_S256x4096_S256x128_0_1536).PackedRows (EltTy.packing .bf16)
  inb_S256x4096_S256x128_0_1664 : ∀ a, (![0, 1664] : Fin 2 → Nat) a + S256x128.size a ≤ S256x4096.size a
  inb_S256x32_S256x1_0_13 : ∀ a, (![0, 13] : Fin 2 → Nat) a + S256x1.size a ≤ S256x32.size a
  packedbf16_S256x4096_S256x128_0_1664 : (Rect.unit (s := S256x4096) ![0, 1664] S256x128.size inb_S256x4096_S256x128_0_1664).PackedRows (EltTy.packing .bf16)
  inb_S256x4096_S256x128_0_1792 : ∀ a, (![0, 1792] : Fin 2 → Nat) a + S256x128.size a ≤ S256x4096.size a
  inb_S256x32_S256x1_0_14 : ∀ a, (![0, 14] : Fin 2 → Nat) a + S256x1.size a ≤ S256x32.size a
  packedbf16_S256x4096_S256x128_0_1792 : (Rect.unit (s := S256x4096) ![0, 1792] S256x128.size inb_S256x4096_S256x128_0_1792).PackedRows (EltTy.packing .bf16)
  inb_S256x4096_S256x128_0_1920 : ∀ a, (![0, 1920] : Fin 2 → Nat) a + S256x128.size a ≤ S256x4096.size a
  inb_S256x32_S256x1_0_15 : ∀ a, (![0, 15] : Fin 2 → Nat) a + S256x1.size a ≤ S256x32.size a
  packedbf16_S256x4096_S256x128_0_1920 : (Rect.unit (s := S256x4096) ![0, 1920] S256x128.size inb_S256x4096_S256x128_0_1920).PackedRows (EltTy.packing .bf16)
  inb_S256x4096_S256x128_0_2048 : ∀ a, (![0, 2048] : Fin 2 → Nat) a + S256x128.size a ≤ S256x4096.size a
  inb_S256x32_S256x1_0_16 : ∀ a, (![0, 16] : Fin 2 → Nat) a + S256x1.size a ≤ S256x32.size a
  packedbf16_S256x4096_S256x128_0_2048 : (Rect.unit (s := S256x4096) ![0, 2048] S256x128.size inb_S256x4096_S256x128_0_2048).PackedRows (EltTy.packing .bf16)
  inb_S256x4096_S256x128_0_2176 : ∀ a, (![0, 2176] : Fin 2 → Nat) a + S256x128.size a ≤ S256x4096.size a
  inb_S256x32_S256x1_0_17 : ∀ a, (![0, 17] : Fin 2 → Nat) a + S256x1.size a ≤ S256x32.size a
  packedbf16_S256x4096_S256x128_0_2176 : (Rect.unit (s := S256x4096) ![0, 2176] S256x128.size inb_S256x4096_S256x128_0_2176).PackedRows (EltTy.packing .bf16)
  inb_S256x4096_S256x128_0_2304 : ∀ a, (![0, 2304] : Fin 2 → Nat) a + S256x128.size a ≤ S256x4096.size a
  inb_S256x32_S256x1_0_18 : ∀ a, (![0, 18] : Fin 2 → Nat) a + S256x1.size a ≤ S256x32.size a
  packedbf16_S256x4096_S256x128_0_2304 : (Rect.unit (s := S256x4096) ![0, 2304] S256x128.size inb_S256x4096_S256x128_0_2304).PackedRows (EltTy.packing .bf16)
  inb_S256x4096_S256x128_0_2432 : ∀ a, (![0, 2432] : Fin 2 → Nat) a + S256x128.size a ≤ S256x4096.size a
  inb_S256x32_S256x1_0_19 : ∀ a, (![0, 19] : Fin 2 → Nat) a + S256x1.size a ≤ S256x32.size a
  packedbf16_S256x4096_S256x128_0_2432 : (Rect.unit (s := S256x4096) ![0, 2432] S256x128.size inb_S256x4096_S256x128_0_2432).PackedRows (EltTy.packing .bf16)
  inb_S256x4096_S256x128_0_2560 : ∀ a, (![0, 2560] : Fin 2 → Nat) a + S256x128.size a ≤ S256x4096.size a
  inb_S256x32_S256x1_0_20 : ∀ a, (![0, 20] : Fin 2 → Nat) a + S256x1.size a ≤ S256x32.size a
  packedbf16_S256x4096_S256x128_0_2560 : (Rect.unit (s := S256x4096) ![0, 2560] S256x128.size inb_S256x4096_S256x128_0_2560).PackedRows (EltTy.packing .bf16)
  inb_S256x4096_S256x128_0_2688 : ∀ a, (![0, 2688] : Fin 2 → Nat) a + S256x128.size a ≤ S256x4096.size a
  inb_S256x32_S256x1_0_21 : ∀ a, (![0, 21] : Fin 2 → Nat) a + S256x1.size a ≤ S256x32.size a
  packedbf16_S256x4096_S256x128_0_2688 : (Rect.unit (s := S256x4096) ![0, 2688] S256x128.size inb_S256x4096_S256x128_0_2688).PackedRows (EltTy.packing .bf16)
  inb_S256x4096_S256x128_0_2816 : ∀ a, (![0, 2816] : Fin 2 → Nat) a + S256x128.size a ≤ S256x4096.size a
  inb_S256x32_S256x1_0_22 : ∀ a, (![0, 22] : Fin 2 → Nat) a + S256x1.size a ≤ S256x32.size a
  packedbf16_S256x4096_S256x128_0_2816 : (Rect.unit (s := S256x4096) ![0, 2816] S256x128.size inb_S256x4096_S256x128_0_2816).PackedRows (EltTy.packing .bf16)
  inb_S256x4096_S256x128_0_2944 : ∀ a, (![0, 2944] : Fin 2 → Nat) a + S256x128.size a ≤ S256x4096.size a
  inb_S256x32_S256x1_0_23 : ∀ a, (![0, 23] : Fin 2 → Nat) a + S256x1.size a ≤ S256x32.size a
  packedbf16_S256x4096_S256x128_0_2944 : (Rect.unit (s := S256x4096) ![0, 2944] S256x128.size inb_S256x4096_S256x128_0_2944).PackedRows (EltTy.packing .bf16)
  inb_S256x4096_S256x128_0_3072 : ∀ a, (![0, 3072] : Fin 2 → Nat) a + S256x128.size a ≤ S256x4096.size a
  inb_S256x32_S256x1_0_24 : ∀ a, (![0, 24] : Fin 2 → Nat) a + S256x1.size a ≤ S256x32.size a
  packedbf16_S256x4096_S256x128_0_3072 : (Rect.unit (s := S256x4096) ![0, 3072] S256x128.size inb_S256x4096_S256x128_0_3072).PackedRows (EltTy.packing .bf16)
  inb_S256x4096_S256x128_0_3200 : ∀ a, (![0, 3200] : Fin 2 → Nat) a + S256x128.size a ≤ S256x4096.size a
  inb_S256x32_S256x1_0_25 : ∀ a, (![0, 25] : Fin 2 → Nat) a + S256x1.size a ≤ S256x32.size a
  packedbf16_S256x4096_S256x128_0_3200 : (Rect.unit (s := S256x4096) ![0, 3200] S256x128.size inb_S256x4096_S256x128_0_3200).PackedRows (EltTy.packing .bf16)
  inb_S256x4096_S256x128_0_3328 : ∀ a, (![0, 3328] : Fin 2 → Nat) a + S256x128.size a ≤ S256x4096.size a
  inb_S256x32_S256x1_0_26 : ∀ a, (![0, 26] : Fin 2 → Nat) a + S256x1.size a ≤ S256x32.size a
  packedbf16_S256x4096_S256x128_0_3328 : (Rect.unit (s := S256x4096) ![0, 3328] S256x128.size inb_S256x4096_S256x128_0_3328).PackedRows (EltTy.packing .bf16)
  inb_S256x4096_S256x128_0_3456 : ∀ a, (![0, 3456] : Fin 2 → Nat) a + S256x128.size a ≤ S256x4096.size a
  inb_S256x32_S256x1_0_27 : ∀ a, (![0, 27] : Fin 2 → Nat) a + S256x1.size a ≤ S256x32.size a
  packedbf16_S256x4096_S256x128_0_3456 : (Rect.unit (s := S256x4096) ![0, 3456] S256x128.size inb_S256x4096_S256x128_0_3456).PackedRows (EltTy.packing .bf16)
  inb_S256x4096_S256x128_0_3584 : ∀ a, (![0, 3584] : Fin 2 → Nat) a + S256x128.size a ≤ S256x4096.size a
  inb_S256x32_S256x1_0_28 : ∀ a, (![0, 28] : Fin 2 → Nat) a + S256x1.size a ≤ S256x32.size a
  packedbf16_S256x4096_S256x128_0_3584 : (Rect.unit (s := S256x4096) ![0, 3584] S256x128.size inb_S256x4096_S256x128_0_3584).PackedRows (EltTy.packing .bf16)
  inb_S256x4096_S256x128_0_3712 : ∀ a, (![0, 3712] : Fin 2 → Nat) a + S256x128.size a ≤ S256x4096.size a
  inb_S256x32_S256x1_0_29 : ∀ a, (![0, 29] : Fin 2 → Nat) a + S256x1.size a ≤ S256x32.size a
  packedbf16_S256x4096_S256x128_0_3712 : (Rect.unit (s := S256x4096) ![0, 3712] S256x128.size inb_S256x4096_S256x128_0_3712).PackedRows (EltTy.packing .bf16)
  inb_S256x4096_S256x128_0_3840 : ∀ a, (![0, 3840] : Fin 2 → Nat) a + S256x128.size a ≤ S256x4096.size a
  inb_S256x32_S256x1_0_30 : ∀ a, (![0, 30] : Fin 2 → Nat) a + S256x1.size a ≤ S256x32.size a
  packedbf16_S256x4096_S256x128_0_3840 : (Rect.unit (s := S256x4096) ![0, 3840] S256x128.size inb_S256x4096_S256x128_0_3840).PackedRows (EltTy.packing .bf16)
  inb_S256x4096_S256x128_0_3968 : ∀ a, (![0, 3968] : Fin 2 → Nat) a + S256x128.size a ≤ S256x4096.size a
  inb_S256x32_S256x1_0_31 : ∀ a, (![0, 31] : Fin 2 → Nat) a + S256x1.size a ≤ S256x32.size a
  packedbf16_S256x4096_S256x128_0_3968 : (Rect.unit (s := S256x4096) ![0, 3968] S256x128.size inb_S256x4096_S256x128_0_3968).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .i32 = 32 ∨ (Rect.block (s := S11008x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S11008x32.size a
  hwx0_1 : ∀ i : grid0.Coords, EltTy.bits .f32 = 32 ∨ (Rect.block (s := S11008x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x11008.size a
  hwx1_2 : ∀ i : grid1.Coords, EltTy.bits .f32 = 32 ∨ (Rect.block (s := S8192x11008) S1024x256.size (cc1_transform_2 i) (hinb1_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S4x2048x11008 : Shape := ⟨3, ![4, 2048, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008x4096, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KernelRun.lean ====
/-
  The kernel program's run, with its result named.

  The program is four segments: two host operations (flatten the activations to `[8192, 4096]`, change their
  format), the dequantizing region, the matrix-product region, one host operation (unflatten the product).  The
  contents of every buffer after each segment are a fold from the launch memory: a host stretch applies its
  operations, a region replaces its arrays by what its write-backs leave.  Run from any memory, every weakly fair
  execution terminates with every buffer at the end of that fold; in particular the result buffer, and the three
  arguments as launched.
-/
import proofs.«176848_j2731599200972_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives a region at the end of
    the fold of the four segments from the launch memory. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer named: it ends at the end of the fold, and the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)
    (run_buffers m ρ)

end Cert.KernelIdeal.Hand

end
-- ==== Proof.Spec.lean ====
/-
  What both programs compute, as plain mathematics over the extended reals.

  A weight matrix of signed 32-bit integers with 4096 columns is stored with one scale per row and per GROUP of
  128 consecutive columns (32 groups).  Dequantizing an entry multiplies the integer, read exactly, by the scale
  of its row and group; the layer then multiplies the activations by the transposed dequantized weights:

      dequant w s (r, k) = (w (r, k) : ℝ) · s (r, k / 128)
      linear x w s (b, t, o) = ∑ k, x (b, t, k) · dequant w s (o, k)

  Nothing here needs the inputs finite: the two programs form the same products and add the same 4096 of them, and
  addition of extended reals is commutative and associative.
-/
import Idealize.ShloMosaic.PureOps.Ideal
import Idealize.ShloMosaic.Lib.ValueIdx

noncomputable section

open scoped BigOperators
open Idealize.ShloMosaic Idealize.ShloMosaic.ValueIdx

namespace Cert.GroupedLinear

/-- The scale group of a column: columns `128 g … 128 g + 127` share scale `g`. -/
def group (k : Fin 4096) : Fin 32 := ⟨k.val / 128, by have := k.isLt; omega⟩

theorem group_val (k : Fin 4096) : (group k).val = k.val / 128 := rfl

/-- One dequantized weight: the integer, exactly, times the scale of its row and group. -/
def dequant {R : ℕ} (w : (⟨2, ![R, 4096]⟩ : Shape).Idx → BitVec 32) (s : (⟨2, ![R, 32]⟩ : Shape).Idx → EReal)
    (r : Fin R) (k : Fin 4096) : EReal :=
  FloatOps.sitofp (F := Ideal) .f32 (w (ix2 r k)) * s (ix2 r (group k))

/-- The dequantized weights as an array of the weights' shape. -/
def dequantArr {R : ℕ} (w : (⟨2, ![R, 4096]⟩ : Shape).Idx → BitVec 32) (s : (⟨2, ![R, 32]⟩ : Shape).Idx → EReal) :
    (⟨2, ![R, 4096]⟩ : Shape).Idx → EReal :=
  fun j => dequant w s (j 0) (j 1)

/-- Rows of `a` against rows of `b`, contracted over the 4096 columns: `a · bᵀ`. -/
def rowsDot {M O : ℕ} (a : (⟨2, ![M, 4096]⟩ : Shape).Idx → EReal) (b : (⟨2, ![O, 4096]⟩ : Shape).Idx → EReal) :
    (⟨2, ![M, O]⟩ : Shape).Idx → EReal :=
  fun j => ∑ k : Fin 4096, a (ix2 (j 0) k) * b (ix2 (j 1) k)

/-- The layer's result: activations `[4, 2048, 4096]` times the transposed dequantized weights `[11008, 4096]`. -/
def linear (x : (⟨3, ![4, 2048, 4096]⟩ : Shape).Idx → EReal) (w : (⟨2, ![11008, 4096]⟩ : Shape).Idx → BitVec 32)
    (s : (⟨2, ![11008, 32]⟩ : Shape).Idx → EReal) : (⟨3, ![4, 2048, 11008]⟩ : Shape).Idx → EReal :=
  fun i => ∑ k : Fin 4096, x (ix3 (i 0) (i 1) k) * dequant w s (i 2) k

end Cert.GroupedLinear

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.DequantBlock.lean ====
/-
  The dequantizing region's body, read at an index.

  One grid point of the first region holds a block of 256 rows of the integer weights (all 4096 columns) and the
  same 256 rows of the scales (all 32 groups).  Its body walks the 32 groups: for group `g` it loads the 128 weight
  columns `128 g … 128 g + 127`, converts them, multiplies every row by that row's scale in column `g`, and stores
  the result over the same 128 columns of the output block.  The 32 stores tile the block, and each of them is the
  restriction of ONE function of the block's index,
      (p, k) ↦ (w (p, k) : ℝ) · s (p, k / 128),
  so the block after the body is that function.
-/
import proofs.«176848_j2731599200972_2_alg».proof.Proof.Gen.KernelIdeal.Frame
import proofs.«176848_j2731599200972_2_alg».proof.Proof.Spec
import proofs.«176848_j2731599200972_2_alg».proof.Proof.LibColumnForms
import Idealize.ShloMosaic.Lib.ValueIdx
import Idealize.ShloMosaic.Lib.Pipeline.Value

noncomputable section

open Idealize.ShloMosaic Idealize.ShloMosaic.TcCoe Idealize.ShloMosaic.ValueIdx

namespace Cert.KernelIdeal.Hand

open Cert.KernelIdeal Cert.KernelIdeal.Gen Cert.GroupedLinear

/-- One group's store, entry by entry.  The 128 weight columns from `o = 128 g` on, converted and scaled row by row
    by scale column `g`, are the dequantized block read where the store's rectangle puts the entry: row `p`,
    column `o + q`, whose group is `(128 g + q) / 128 = g`. -/
theorem group_piece (x0 : Vec Ideal S256x4096 .i32) (x1 : Vec Ideal S256x32 .f32) (o g : ℕ) (h : o = 128 * g)
    (inb0 : ∀ a, (![0, o] : Fin 2 → ℕ) a + S256x128.size a ≤ S256x4096.size a)
    (inb1 : ∀ a, (![0, g] : Fin 2 → ℕ) a + S256x1.size a ≤ S256x32.size a)
    (x : S256x128.Idx) :
    (truncf .bf16 (mulf (sitofp .f32 (View.ld x0 (Rect.unit (s := S256x4096) ![0, o] S256x128.size inb0)))
        (broadcastTo S256x128 (View.ld x1 (Rect.unit (s := S256x32) ![0, g] S256x1.size inb1)) broadcasts_S256x1_S256x128))
        bitsLt_bf16_f32 : FVec Ideal S256x128 .bf16) x
      = dequantArr x0 x1 ((Rect.unit (s := S256x4096) ![0, o] S256x128.size inb0).emb x) := by
  obtain ⟨p, q, rfl⟩ : ∃ (p : Fin 256) (q : Fin 128), x = ix2 p q := ⟨x 0, x 1, eq_ix2 x⟩
  rw [truncf_apply, mulf_apply, sitofp_apply, ValueLayout.broadcastTo_a1_ab_apply]
  unfold dequantArr dequant
  refine congrArg₂ (· * ·) (congrArg _ (congrArg x0 (eq_ix2 _))) (congrArg x1 (funext fun a => Fin.ext ?_))
  match a with
  | ⟨0, _⟩ => rfl
  | ⟨1, _⟩ =>
    show g + 1 * 0 = (o + 1 * q.val) / 128
    have hq : q.val < 128 := q.isLt
    subst h; omega

/-- What a point of the first region leaves in its output block: the block of integer weights dequantized with the
    block of scales.  The body's 32 stores are 32 restrictions of that one function (`group_piece`, with the column
    offset and the group read off each store), and together they cover the block. -/
theorem out0_2_apply (x0 : Vec Ideal S256x4096 .i32) (x1 : Vec Ideal S256x32 .f32) (y : S256x4096.Idx) :
    out0_2 x0 x1 y = dequantArr x0 x1 y := by
  unfold out0_2
  refine View.canon_apply_of_pieces (Val := Elt Ideal) (S := S256x4096) (e := .bf16) (dequantArr x0 x1) _ ?_ y (cover0_2 _ _ _ _ _ _ _ _ _ _ _ _ _ _ _ _ _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun x => group_piece x0 x1 _ _ (by decide) _ _ x

end Cert.KernelIdeal.Hand

end
-- ==== Proof.MatmulBlock.lean ====
/-
  The matrix-product region's body, read at an index.

  One grid point of the second region loads a block of 1024 rows of the activations and a block of 256 rows of
  the dequantized weights, both with all 4096 columns, and stores their product contracted over the columns,
  accumulated from zero.  On the extended reals that product is the plain sum
      out (p, q) = ∑ k, x (p, k) · w (q, k)
  over the 4096 columns: nothing of the accumulation order or of the float formats is left in it.
-/
import proofs.«176848_j2731599200972_2_alg».proof.Proof.Gen.KernelIdeal.Frame
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Hand

open Cert.KernelIdeal Cert.KernelIdeal.Gen

/-- The zero offsets of a rank-2 rectangle, as the constant function. -/
theorem off_zero2 : (![0, 0] : Fin 2 → Nat) = fun _ => 0 := funext fun a => by fin_cases a <;> rfl

local notation "dotBlock" => dot_S1024x4096_S256x4096_S1024x256_1_1_0_0_n_n

/-- The left operand's row is the output's row. -/
theorem dotBlock_lhs0 (j : S1024x256.Idx) (q : (dotBlock).contr.Idx) : ((dotBlock).lhsIdx j q 0).val = (j 0).val := by
  unfold DotDims.lhsIdx
  rw [dif_neg (show ¬(0 : Fin S1024x4096.rank) ∈ (dotBlock).lhsBatch by decide),
    dif_pos (show (0 : Fin S1024x4096.rank) ∈ (dotBlock).lhsNonContracting by decide)]
  rfl

/-- The left operand's column is the contraction index. -/
theorem dotBlock_lhs1 (j : S1024x256.Idx) (q : (dotBlock).contr.Idx) :
    ((dotBlock).lhsIdx j q 1).val = (q ⟨0, by decide⟩).val :=
  (dotBlock).lhsIdx_val_of_single rfl j q

/-- The right operand's row is the output's column. -/
theorem dotBlock_rhs0 (j : S1024x256.Idx) (q : (dotBlock).contr.Idx) : ((dotBlock).rhsIdx j q 0).val = (j 1).val := by
  unfold DotDims.rhsIdx
  rw [dif_neg (show ¬(0 : Fin S256x4096.rank) ∈ (dotBlock).rhsBatch by decide),
    dif_pos (show (0 : Fin S256x4096.rank) ∈ (dotBlock).rhsNonContracting by decide)]
  rfl

/-- The right operand's column is the contraction index. -/
theorem dotBlock_rhs1 (j : S1024x256.Idx) (q : (dotBlock).contr.Idx) :
    ((dotBlock).rhsIdx j q 1).val = (q ⟨0, by decide⟩).val :=
  (dotBlock).rhsIdx_val_of_single rfl j q

/-- What a point of the second region leaves in its output block, entry by entry: the sum over the 4096 columns of
    the products of the two loaded blocks' entries. -/
theorem out1_2_apply (x0 : Vec Ideal S1024x4096 .bf16) (x1 : Vec Ideal S256x4096 .bf16) (p : Fin 1024) (q : Fin 256) :
    out1_2 x0 x1 (ix2 p q) = ∑ k : Fin 4096, x0 (ix2 p k) * x1 (ix2 q k) := by
  unfold out1_2
  rw [View.canon_unit_zero off_zero2]
  simp only [View.ld_unit_zero (S := S1024x4096) off_zero2, View.ld_unit_zero (S := S256x4096) off_zero2]
  unfold k1_pay1
  simp only [shapeCast_self, matmul]
  rw [Ideal.matmul_constant_zero_apply, ← Equiv.sum_comp (contrEquiv1 dotBlock 4096 rfl rfl).symm]
  refine Finset.sum_congr rfl fun k _ => ?_
  have hk := contrEquiv1_symm_val dotBlock 4096 rfl rfl k
  have el : (dotBlock).lhsIdx (ix2 p q) ((contrEquiv1 dotBlock 4096 rfl rfl).symm k) = ix2 p k := funext fun a => Fin.ext (by
    match a with
    | ⟨0, _⟩ => exact dotBlock_lhs0 _ _
    | ⟨1, _⟩ => exact (dotBlock_lhs1 _ _).trans hk)
  have er : (dotBlock).rhsIdx (ix2 p q) ((contrEquiv1 dotBlock 4096 rfl rfl).symm k) = ix2 q k := funext fun a => Fin.ext (by
    match a with
    | ⟨0, _⟩ => exact dotBlock_rhs0 _ _
    | ⟨1, _⟩ => exact (dotBlock_rhs1 _ _).trans hk)
  rw [el, er]

end Cert.KernelIdeal.Hand

end
-- ==== Proof.RegionArrays.lean ====
/-
  From blocks to arrays: what each region leaves in its output array.

  A region runs its body once per grid point on a block of each operand and writes the output block back.  The
  blocks of an output tile its array, and what a point writes is the block, at that point, of ONE function of the
  arrays the region found; so after the region the output array is that function.

  * The dequantizing region has 43 points; point `t` takes rows `256 t … 256 t + 255` of the weights and of the
    scales and writes the same rows of the dequantized weights.
  * The matrix-product region has 8 × 43 points; point `(i, j)` takes rows `1024 i …` of the activations and rows
    `256 j …` of the dequantized weights and writes the `1024 × 256` block `(i, j)` of the product.

  Both are stated at any contents `V` the region may find, since the second region finds what the first left.
-/
import proofs.«176848_j2731599200972_2_alg».proof.Proof.DequantBlock
import proofs.«176848_j2731599200972_2_alg».proof.Proof.MatmulBlock
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.GroupedLinear

variable (V : (c : Dev nD) → (b : Ref sig .tc) → Buf (Elt Ideal) ((c : Thread nD τ).loc b))

/-! ## The grids' index maps, at a symbolic point -/

/-- A 32-bit word made from a number below `2 ^ 32` reads back as the number. -/
theorem word_toNat (x : ℕ) (hx : x < 4294967296) : (BitVec.ofNat 32 x).toNat = x := by
  rw [BitVec.toNat_ofNat]; exact Nat.mod_eq_of_lt hx

/-- Point `t` of the 8 × 43 grid has block row `t / 43` and block column `t % 43` (the last axis runs fastest). -/
theorem out_index1 (t : Fin cfg1.N) :
    win1_2.index t (0 : Fin 2) = t.val / 43 % 8 ∧ win1_2.index t (1 : Fin 2) = t.val / 1 % 43 := by
  constructor
  · show (BitVec.ofNat 32 (t.val / 43 % 8)).toNat = t.val / 43 % 8
    exact word_toNat _ (by omega)
  · show (BitVec.ofNat 32 (t.val / 1 % 43)).toNat = t.val / 1 % 43
    exact word_toNat _ (by omega)

/-- Both operands take all columns; the activations move with the output's block row, the weights with its block
    column. -/
theorem in_index1 (t : Fin cfg1.N) :
    win1_0.index t (1 : Fin 2) = 0 ∧ win1_1.index t (1 : Fin 2) = 0
    ∧ win1_0.index t (0 : Fin 2) = win1_2.index t (0 : Fin 2)
    ∧ win1_1.index t (0 : Fin 2) = win1_2.index t (1 : Fin 2) := ⟨rfl, rfl, rfl, rfl⟩

/-- Point `t` of the 43-point grid is block row `t` of all three windows, which take all their columns. -/
theorem index0 (t : Fin cfg0.N) :
    win0_2.index t (0 : Fin 2) = t.val / 1 % 43 ∧ win0_2.index t (1 : Fin 2) = 0
    ∧ win0_0.index t (0 : Fin 2) = win0_2.index t (0 : Fin 2) ∧ win0_0.index t (1 : Fin 2) = 0
    ∧ win0_1.index t (0 : Fin 2) = win0_2.index t (0 : Fin 2) ∧ win0_1.index t (1 : Fin 2) = 0 := by
  refine ⟨?_, rfl, rfl, rfl, rfl, rfl⟩
  show (BitVec.ofNat 32 (t.val / 1 % 43)).toNat = t.val / 1 % 43
  exact word_toNat _ (by omega)

/-! ## The matrix-product region -/

/-- What point `t` writes back is block `t` of the product of the two arrays the region found: row `p` of the
    point's activation block is row `1024 · (block row) + p` of the activations, row `q` of its weight block is
    row `256 · (block column) + q` of the weights, and both blocks hold all 4096 columns. -/
theorem flushed1 (c : Dev nD) (t : Fin cfg1.N) :
    (dat1 V c).flushed 2 t = ((cfg1.win 2).blk t).view.read (Elt Ideal) (rowsDot (V c main_v1) (V c main_v2)) := by
  show (cfg1.win 2).cut (grid1.coords t) ((dat1 V c).after 2 t) = _
  rw [after1_2]
  obtain ⟨e0, e1, e2, e3⟩ := in_index1 t
  funext j
  show out1_2 (iblk1 V c 0 t) (iblk1 V c 1 t) j = rowsDot (V c main_v1) (V c main_v2) (((cfg1.win 2).blk t).view.emb j)
  obtain ⟨p, q, rfl⟩ : ∃ (p : Fin 1024) (q : Fin 256), j = ix2 p q := ⟨j 0, j 1, eq_ix2 (n0 := 1024) (n1 := 256) j⟩
  refine (out1_2_apply (iblk1 V c 0 t) (iblk1 V c 1 t) p q).trans ?_
  unfold rowsDot
  refine Finset.sum_congr rfl fun k _ => ?_
  refine congrArg₂ (· * ·) ?_ ?_
  · show V c main_v1 (((cfg1.win 0).blk t).view.emb (ix2 p k))
        = V c main_v1 (ix2 ((((cfg1.win 2).blk t).view.emb (ix2 p q)) 0) k)
    refine congrArg (V c main_v1) (funext fun a => Fin.ext ?_)
    match a with
    | ⟨0, _⟩ => show win1_0.index t 0 * 1024 + 1 * p.val = win1_2.index t 0 * 1024 + 1 * p.val; rw [e2]
    | ⟨1, _⟩ => show win1_0.index t 1 * 4096 + 1 * k.val = k.val; rw [e0]; omega
  · show V c main_v2 (((cfg1.win 1).blk t).view.emb (ix2 q k))
        = V c main_v2 (ix2 ((((cfg1.win 2).blk t).view.emb (ix2 p q)) 1) k)
    refine congrArg (V c main_v2) (funext fun a => Fin.ext ?_)
    match a with
    | ⟨0, _⟩ => show win1_1.index t 0 * 256 + 1 * q.val = win1_2.index t 1 * 256 + 1 * q.val; rw [e3]
    | ⟨1, _⟩ => show win1_1.index t 1 * 4096 + 1 * k.val = k.val; rw [e1]; omega

/-- An index of the product array is in point `t`'s block iff each coordinate is in the block's range on its axis. -/
theorem mem_blk1 (t : Fin cfg1.N) (i : S8192x11008.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v3).slice (win1_2.rect t)).set ↔ _
  rw [View.set_slice_whole, Rect.mem_set_unit]
  exact Iff.rfl

/-- After the region the product array is the product of the two arrays the region found: entry `(r, o)` lies in
    the block of the point `43 · (r / 1024) + o / 256`. -/
theorem array1 (c : Dev nD) : (dat1 V c).arrAt 2 cfg1.N = rowsDot (V c main_v1) (V c main_v2) :=
  (dat1 V c).arrAt_eq_of_cover 2 (rowsDot (V c main_v1) (V c main_v2)) (fun t _ => flushed1 V c t) fun i => by
    have h0 : (i 0).val < 8192 := (i 0).isLt
    have h1 : (i 1).val < 11008 := (i 1).isLt
    obtain ⟨t, ht⟩ : ∃ t : Fin cfg1.N, t.val = (i 0).val / 1024 * 43 + (i 1).val / 256 :=
      ⟨⟨(i 0).val / 1024 * 43 + (i 1).val / 256, by show _ < grid1.N; rw [N_1]; omega⟩, rfl⟩
    obtain ⟨r0, r1⟩ := out_index1 t
    refine ⟨t, flush1_2 t, ?_⟩
    rw [mem_blk1]
    intro a
    match a with
    | ⟨0, _⟩ =>
      show win1_2.index t 0 * 1024 ≤ (i 0).val ∧ (i 0).val < win1_2.index t 0 * 1024 + 1024
      rw [r0, ht]; omega
    | ⟨1, _⟩ =>
      show win1_2.index t 1 * 256 ≤ (i 1).val ∧ (i 1).val < win1_2.index t 1 * 256 + 256
      rw [r1, ht]; omega

/-! ## The dequantizing region -/

/-- What point `t` writes back is block `t` of the dequantized weights: row `p` of the point's blocks is row
    `256 t + p` of the weights and of the scales, and the blocks hold all columns, so the group of a column is the
    same in the block and in the array. -/
theorem flushed0 (c : Dev nD) (t : Fin cfg0.N) :
    (dat0 V c).flushed 2 t = ((cfg0.win 2).blk t).view.read (Elt Ideal) (dequantArr (V c main_arg1) (V c main_arg2)) := by
  show (cfg0.win 2).cut (grid0.coords t) ((dat0 V c).after 2 t) = _
  rw [after0_2]
  obtain ⟨-, z2, r0, z0, r1, z1⟩ := index0 t
  funext j
  show out0_2 (iblk0 V c 0 t) (iblk0 V c 1 t) j
      = dequantArr (V c main_arg1) (V c main_arg2) (((cfg0.win 2).blk t).view.emb j)
  obtain ⟨p, k, rfl⟩ : ∃ (p : Fin 256) (k : Fin 4096), j = ix2 p k := ⟨j 0, j 1, eq_ix2 (n0 := 256) (n1 := 4096) j⟩
  refine (out0_2_apply (iblk0 V c 0 t) (iblk0 V c 1 t) (ix2 p k)).trans ?_
  unfold dequantArr dequant
  have hk : k.val < 4096 := k.isLt
  refine congrArg₂ (· * ·) (congrArg _ ?_) ?_
  · show V c main_arg1 (((cfg0.win 0).blk t).view.emb (ix2 p k))
        = V c main_arg1 (ix2 ((((cfg0.win 2).blk t).view.emb (ix2 p k)) 0) ((((cfg0.win 2).blk t).view.emb (ix2 p k)) 1))
    refine congrArg (V c main_arg1) (funext fun a => Fin.ext ?_)
    match a with
    | ⟨0, _⟩ => show win0_0.index t 0 * 256 + 1 * p.val = win0_2.index t 0 * 256 + 1 * p.val; rw [r0]
    | ⟨1, _⟩ => show win0_0.index t 1 * 4096 + 1 * k.val = win0_2.index t 1 * 4096 + 1 * k.val; rw [z0, z2]
  · show V c main_arg2 (((cfg0.win 1).blk t).view.emb (ix2 p (group k)))
        = V c main_arg2 (ix2 ((((cfg0.win 2).blk t).view.emb (ix2 p k)) 0) (group ((((cfg0.win 2).blk t).view.emb (ix2 p k)) 1)))
    refine congrArg (V c main_arg2) (funext fun a => Fin.ext ?_)
    match a with
    | ⟨0, _⟩ => show win0_1.index t 0 * 256 + 1 * p.val = win0_2.index t 0 * 256 + 1 * p.val; rw [r1]
    | ⟨1, _⟩ =>
      show win0_1.index t 1 * 32 + 1 * (k.val / 128) = (win0_2.index t 1 * 4096 + 1 * k.val) / 128
      rw [z1, z2]; omega

/-- An index of the dequantized array is in point `t`'s block iff each coordinate is in the block's range. -/
theorem mem_blk0 (t : Fin cfg0.N) (i : S11008x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- After the region the output array is the weights dequantized with the scales, as the region found them: row `r`
    lies in the block of point `r / 256`. -/
theorem array0 (c : Dev nD) : (dat0 V c).arrAt 2 cfg0.N = dequantArr (V c main_arg1) (V c main_arg2) :=
  (dat0 V c).arrAt_eq_of_cover 2 (dequantArr (V c main_arg1) (V c main_arg2)) (fun t _ => flushed0 V c t) fun i => by
    have h0 : (i 0).val < 11008 := (i 0).isLt
    have h1 : (i 1).val < 4096 := (i 1).isLt
    obtain ⟨t, ht⟩ : ∃ t : Fin cfg0.N, t.val = (i 0).val / 256 :=
      ⟨⟨(i 0).val / 256, by show _ < grid0.N; rw [N_0]; omega⟩, rfl⟩
    obtain ⟨r0, z0, -, -, -, -⟩ := index0 t
    refine ⟨t, flush0_2 t, ?_⟩
    rw [mem_blk0]
    intro a
    match a with
    | ⟨0, _⟩ =>
      show win0_2.index t 0 * 256 ≤ (i 0).val ∧ (i 0).val < win0_2.index t 0 * 256 + 256
      rw [r0, ht]; omega
    | ⟨1, _⟩ =>
      show win0_2.index t 1 * 4096 ≤ (i 1).val ∧ (i 1).val < win0_2.index t 1 * 4096 + 4096
      rw [z0]; omega

end Cert.KernelIdeal.Hand

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.KernelResult.lean ====
/-
  The kernel program's result buffer ends at `linear` of the three arguments.

  Walk the fold of the four segments backwards from the result.  The last host operation unflattens the product
  array `[8192, 11008]` into `[4, 2048, 11008]`.  The product array is what the matrix-product region leaves: rows of
  the flattened activations against rows of the dequantized weights.  The flattened activations are the first two
  host operations' result (a reshape; the change of format is the identity on the extended reals), which the
  dequantizing region does not touch.  The dequantized weights are what the dequantizing region leaves of the
  integer weights and the scales, which no host operation before it writes.  Read at an index `(b, t, o)`, row
  `2048 b + t` of the flattened activations is row `(b, t)` of the activations, and the sum over the 4096 columns
  is the one that defines `linear`.
-/
import proofs.«176848_j2731599200972_2_alg».proof.Proof.KernelRun
import proofs.«176848_j2731599200972_2_alg».proof.Proof.RegionArrays
import proofs.«176848_j2731599200972_2_alg».proof.Proof.LibRankThreeForms
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.StableHlo

namespace Cert.KernelIdeal.Hand

open Cert.KernelIdeal Cert.KernelIdeal.Gen Cert.GroupedLinear

variable (m : (ℓ : Loc nD τ sig) → Buf (Elt Ideal) ℓ) (ρ : Dev nD → PrngReg)

/-- The activations the matrix-product region finds: the argument flattened to `[8192, 4096]`. -/
theorem entry_activations (c : Dev nD) :
    @Eq (FVec Ideal S8192x4096 .bf16) (V2 m ρ c main_v1)
      (truncf .bf16 (shapeCast S8192x4096 (m ((c : Thread nD τ).loc main_arg0) : FVec Ideal S4x2048x4096 .f32)
        shapeCasts_S4x2048x4096_S8192x4096) bitsLt_bf16_f32) := by
  show W2 m ρ c (Proc.devRef .tc main_v1) = _
  rw [W2_of_ne m ρ c main_v1 (by decide)]
  show StableHlo.after hostOps0 (W0 m ρ c) (Proc.devRef .tc main_v1) = _
  after_results
  rfl

/-- The integer weights and the scales reach the dequantizing region as launched: no host operation before it
    writes them. -/
theorem entry_args (c : Dev nD) :
    V1 m ρ c main_arg1 = m ((c : Thread nD τ).loc main_arg1) ∧ V1 m ρ c main_arg2 = m ((c : Thread nD τ).loc main_arg2) := by
  constructor
  · show StableHlo.after hostOps0 (W0 m ρ c) (Proc.devRef .tc main_arg1) = _
    after_results <;> rfl
  · show StableHlo.after hostOps0 (W0 m ρ c) (Proc.devRef .tc main_arg2) = _
    after_results <;> rfl

/-- The weights the matrix-product region finds: what the dequantizing region left of the integer weights and the
    scales. -/
theorem entry_weights (c : Dev nD) :
    V2 m ρ c main_v2 = dequantArr (m ((c : Thread nD τ).loc main_arg1)) (m ((c : Thread nD τ).loc main_arg2)) := by
  show W2 m ρ c (Proc.devRef .tc (Pipeline.arrRef spec0 2)) = _
  rw [W2_arr m ρ c 2, array0 (V1 m ρ) c, (entry_args m ρ c).1, (entry_args m ρ c).2]

/-- The product array after the matrix-product region: rows of what it found in the activations' buffer against rows of
    what it found in the weights' buffer. -/
theorem product_array (c : Dev nD) :
    W3 m ρ c (Proc.devRef .tc main_v3) = rowsDot (V2 m ρ c main_v1) (V2 m ρ c main_v2) := by
  show W3 m ρ c (Proc.devRef .tc (Pipeline.arrRef spec1 2)) = _
  rw [W3_arr m ρ c 2]
  exact array1 (V2 m ρ) c

/-- The result buffer at the end of the fold: the product array unflattened. -/
theorem result_buffer (c : Dev nD) :
    @Eq (FVec Ideal S4x2048x11008 .f32) (W4 m ρ c (Proc.devRef .tc main_v4))
      (shapeCast S4x2048x11008 (W3 m ρ c (Proc.devRef .tc main_v3) : FVec Ideal S8192x11008 .f32)
        shapeCasts_S8192x11008_S4x2048x11008) := by
  show StableHlo.after hostOps2 (W3 m ρ c) (Proc.devRef .tc main_v4) = _
  after_results
  rfl

/-- The result buffer ends at `linear` of the three arguments as launched. -/
theorem result_eq (c : Dev nD) :
    W4 m ρ c (Proc.devRef .tc main_v4)
      = linear (m ((c : Thread nD τ).loc main_arg0)) (m ((c : Thread nD τ).loc main_arg1)) (m ((c : Thread nD τ).loc main_arg2)) := by
  refine (result_buffer m ρ c).trans ?_
  rw [product_array m ρ c, entry_activations m ρ c, entry_weights m ρ c]
  funext i
  obtain ⟨b, t, o, rfl⟩ : ∃ (b : Fin 4) (t : Fin 2048) (o : Fin 11008), i = ix3 b t o := ⟨i 0, i 1, i 2, eq_ix3 i⟩
  have hb : b.val < 4 := b.isLt
  have ht : t.val < 2048 := t.isLt
  refine (shapeCast_pc_abc_apply _ shapeCasts_S8192x11008_S4x2048x11008 b t o ⟨b.val * 2048 + t.val, by omega⟩ rfl).trans ?_
  unfold rowsDot linear
  refine Finset.sum_congr rfl fun k _ => ?_
  refine congrArg₂ (· * ·) ?_ rfl
  exact shapeCast_abc_pc_apply _ shapeCasts_S4x2048x4096_S8192x4096 b t k ⟨b.val * 2048 + t.val, by omega⟩ rfl

end Cert.KernelIdeal.Hand

end
-- ==== Proof.ReferenceValue.lean ====
/-
  The reference computes `linear`.

  The reference converts the integer weights, views each row as 32 groups of 128, multiplies every group by its
  scale, flattens the groups back to a row, and contracts the activations' last axis against the rows.  Read at an
  index through the two reshapes, the entry `(o, k)` of the flattened product sits at row-major position
  `4096 o + k`, which in the grouped view is row `o`, group `k / 128`, lane `k % 128`: it is the integer
  `w (o, k)` times the scale `s (o, k / 128)`.  The contraction is then the sum that defines `linear`.
-/
import proofs.«176848_j2731599200972_2_alg».proof.Proof.Gen.ReferenceIdeal.Read
import proofs.«176848_j2731599200972_2_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read Cert.GroupedLinear

/-- Through the reshape to groups and back, entry `(o, k)` of the flattened array reads entry `(o, k)` of the
    integer weights. -/
theorem weight_index (o : Fin 11008) (k : Fin 4096) : idx_main_v1 (idx_main_v5 (ix2 o k)) = ix2 o k := by
  have ho : o.val < 11008 := o.isLt
  have hk : k.val < 4096 := k.isLt
  funext a; apply Fin.ext
  match a with
  | ⟨0, _⟩ =>
    show ((((o.val * 4096 + k.val) / 4096 * 32 + (o.val * 4096 + k.val) / 128 % 32) * 128 + (o.val * 4096 + k.val) % 128) / 4096) = o.val
    omega
  | ⟨1, _⟩ =>
    show ((((o.val * 4096 + k.val) / 4096 * 32 + (o.val * 4096 + k.val) / 128 % 32) * 128 + (o.val * 4096 + k.val) % 128) % 4096) = k.val
    omega

/-- and the scale of row `o` and of the group of column `k`. -/
theorem scale_index (o : Fin 11008) (k : Fin 4096) : idx_main_v2 (idx_main_v3 (idx_main_v5 (ix2 o k))) = ix2 o (group k) := by
  have ho : o.val < 11008 := o.isLt
  have hk : k.val < 4096 := k.isLt
  funext a; apply Fin.ext
  match a with
  | ⟨0, _⟩ => show (o.val * 4096 + k.val) / 4096 = o.val; omega
  | ⟨1, _⟩ => show (o.val * 4096 + k.val) / 128 % 32 = k.val / 128; omega

/-- The flattened product the reference contracts against is the dequantized weight. -/
theorem weights_eq (x1 : (⟨S11008x4096, .i32⟩ : BufTy).Contents (Elt Ideal)) (x2 : (⟨S11008x32, .f32⟩ : BufTy).Contents (Elt Ideal))
    (o : Fin 11008) (k : Fin 4096) : val_main_v5 (F := Ideal) x1 x2 (ix2 o k) = dequant x1 x2 o k := by
  rw [val_main_v5_apply, val_main_v4_apply, val_main_v1_apply, val_main_v0_apply, val_main_v3_apply, val_main_v2_apply,
    weight_index, scale_index]
  rfl

/-- The reference's result, as the generated run states it, is `linear` of the three arguments. -/
theorem result_eq (x0 : (⟨S4x2048x4096, .f32⟩ : BufTy).Contents (Elt Ideal)) (x1 : (⟨S11008x4096, .i32⟩ : BufTy).Contents (Elt Ideal))
    (x2 : (⟨S11008x32, .f32⟩ : BufTy).Contents (Elt Ideal)) : val_main_v6 (F := Ideal) x0 x1 x2 = linear x0 x1 x2 := by
  funext i
  obtain ⟨b, s, o, rfl⟩ : ∃ (b : Fin 4) (s : Fin 2048) (o : Fin 11008), i = ix3 b s o := ⟨i 0, i 1, i 2, eq_ix3 i⟩
  rw [val_main_v6_apply]
  unfold linear
  refine Finset.sum_congr rfl fun k _ => ?_
  have el : lidx_main_v6 (ix3 b s o) k = ix3 b s k := funext fun a => by
    match a with
    | ⟨0, _⟩ => rfl
    | ⟨1, _⟩ => rfl
    | ⟨2, _⟩ => rfl
  have er : ridx_main_v6 (ix3 b s o) k = ix2 o k := funext fun a => by
    match a with
    | ⟨0, _⟩ => rfl
    | ⟨1, _⟩ => rfl
  rw [el, er, weights_eq]

end Cert.ReferenceIdeal.RefValue

end
-- ==== Proof.lean ====
/-
  The certificate of a linear layer with group-quantized weights.

  The kernel program dequantizes the integer weights in one region — each row's 4096 columns in 32 groups of 128,
  every group multiplied by its own scale — and multiplies the flattened activations by the transposed result in a
  second region, block by block; the reference does the same on whole arrays: convert, view as groups, scale,
  flatten, contract.  On the extended reals both end at

      out (b, t, o) = ∑ k, x (b, t, k) · ((w (o, k) : ℝ) · s (o, k / 128))        (Proof/Spec.lean, `linear`)

  with the same products in the same order of factors and the same 4096 terms in each sum, so no law of the
  extended reals beyond the definitions is used and the inputs' finiteness is never opened.

  * Proof/DequantBlock.lean, Proof/MatmulBlock.lean: what one grid point of each region leaves in its output block.
  * Proof/RegionArrays.lean: what each region leaves in its output array (its blocks tile the array).
  * Proof/KernelRun.lean: the kernel program's run with every buffer named at the end.
  * Proof/KernelResult.lean: the result buffer, walked back through the four segments, is `linear`.
  * Proof/ReferenceValue.lean: the reference's result is `linear`.
  The three frames are the generated ones (the reference's is its run with the result dropped); the idealization
  rewrote no operation, so there is nothing to preserve.
-/
import proofs.«176848_j2731599200972_2_alg».proof.Defs
import proofs.«176848_j2731599200972_2_alg».proof.Proof.Gen.Kernel
import proofs.«176848_j2731599200972_2_alg».proof.Proof.Gen.Kernel.Skeleton
import proofs.«176848_j2731599200972_2_alg».proof.Proof.Gen.Kernel.Launch
import proofs.«176848_j2731599200972_2_alg».proof.Proof.Gen.Kernel.Points
import proofs.«176848_j2731599200972_2_alg».proof.Proof.Gen.Kernel.Frame
import proofs.«176848_j2731599200972_2_alg».proof.Proof.Gen.KernelIdeal
import proofs.«176848_j2731599200972_2_alg».proof.Proof.Gen.KernelIdeal.Skeleton
import proofs.«176848_j2731599200972_2_alg».proof.Proof.Gen.KernelIdeal.Launch
import proofs.«176848_j2731599200972_2_alg».proof.Proof.Gen.KernelIdeal.Points
import proofs.«176848_j2731599200972_2_alg».proof.Proof.Gen.KernelIdeal.Frame
import proofs.«176848_j2731599200972_2_alg».proof.Proof.Gen.ReferenceIdeal
import proofs.«176848_j2731599200972_2_alg».proof.Proof.Gen.ReferenceIdeal.Run
import proofs.«176848_j2731599200972_2_alg».proof.Proof.Gen.ReferenceIdeal.Read
import proofs.«176848_j2731599200972_2_alg».proof.Proof.Gen.Pre_finite_inputs
import proofs.«176848_j2731599200972_2_alg».proof.Proof.KernelResult
import proofs.«176848_j2731599200972_2_alg».proof.Proof.ReferenceValue
import Idealize.ShloMosaic.Adequacy
import Idealize.ShloMosaic.Init

noncomputable section

namespace Cert.Proof

open Idealize.ShloMosaic Idealize.SL.Sem Cert.GroupedLinear

/-- The kernel program as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories agreeing on the three arguments, both programs end with their result at
    `linear` of the arguments, and with the arguments unchanged. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
